-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256 : Shape := ⟨2, ![1024, 256]⟩
abbrev S1024x1024 : Shape := ⟨2, ![1024, 1024]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel

variable [Facts]

def fn {F : FTy → Type} [FloatOps F] (main_arg0 : FVec F S1024x256 .f32) (main_arg1 : FVec F S1024x256 .f32) (main_arg2 : IVec S1024x1024 32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  main_v8
-- ==== Kernel.lean ====
abbrev S1024x256 : Shape := ⟨2, ![1024, 256]⟩
abbrev S1024x1024 : Shape := ⟨2, ![1024, 1024]⟩
abbrev S1024x1 : Shape := ⟨2, ![1024, 1]⟩
abbrev S128x256 : Shape := ⟨2, ![128, 256]⟩
abbrev S128x128 : Shape := ⟨2, ![128, 128]⟩
abbrev S128x1 : Shape := ⟨2, ![128, 1]⟩
abbrev S128x1x128 : Shape := ⟨3, ![128, 1, 128]⟩
abbrev S1x128x128 : Shape := ⟨3, ![1, 128, 128]⟩
abbrev S128x128x128 : Shape := ⟨3, ![128, 128, 128]⟩
abbrev S128 : Shape := ⟨1, ![128]⟩
abbrev S_ : Shape := ⟨0, ![]⟩

abbrev nBuf : Space → Nat
  | .hbm => 6
  | .vmem => 9
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x1024, .i32⟩
  | .hbm, ⟨3, _⟩ => ⟨S1024x1, .f32⟩
  | .hbm, ⟨4, _⟩ => ⟨S_, .f32⟩
  | .hbm, ⟨5, _⟩ => ⟨S_, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x128, .i32⟩
  | .local _ .vmem, ⟨5, _⟩ => ⟨S128x128, .i32⟩
  | .local _ .vmem, ⟨6, _⟩ => ⟨S128x1, .f32⟩
  | .local _ .vmem, ⟨7, _⟩ => ⟨S128x1, .f32⟩
  | .local _ .vmem, ⟨8, _⟩ => ⟨S128x1, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v37 : BitVec 1 := Scalar.cmpi .eq arg1 c7_i32
  let v38 : BitVec 32 := Scalar.extui v37
  let c0_i32_17 : BitVec 32 := 0#32
  let v39 : BitVec 1 := Scalar.cmpi .ne v38 c0_i32_17
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S128x256_S128x128_0_0 : ∀ a, (![0, 0] : Fin 2 → Nat) a + S128x128.size a ≤ S128x256.size a
  h_S128x128 : 0 < S128x128.numel
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  reduces_S128x128x128_S128x128 : S128x128x128.Reduces [2] S128x128
  inb_S128x256_S128x128_0_128 : ∀ a, (![0, 128] : Fin 2 → Nat) a + S128x128.size a ≤ S128x256.size a
  inb_S128x128_S128x128_0_0 : ∀ a, (![0, 0] : Fin 2 → Nat) a + S128x128.size a ≤ S128x128.size a
  reduces_S128x128_S128 : S128x128.Reduces [1] S128
  shapeCasts_S128_S128x1 : S128.ShapeCasts S128x1
  reducesTo_S1024x1_S_d0_1 : S1024x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S1024x256.size a
  hwx0_0 : ∀ i : grid0.Coords, EltTy.bits .f32 = 32 ∨ (Rect.block (s := S1024x256) S128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S1024x256.size a
  hwx0_1 : ∀ i : grid0.Coords, EltTy.bits .f32 = 32 ∨ (Rect.block (s := S1024x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S1024x1024.size a
  hwx0_2 : ∀ i : grid0.Coords, EltTy.bits .i32 = 32 ∨ (Rect.block (s := S1024x1024) S128x128.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S1024x1.size a
  hwx0_3 : ∀ i : grid0.Coords, EltTy.bits .f32 = 32 ∨ (Rect.block (s := S1024x1) S128x1.size (cc0_transform_3 i) (hinb0_3 i)).WholeWords (EltTy.packing .f32)

variable [Facts₀]

abbrev win0_0 : Pipeline.Window sig grid0 :=
  Pipeline.Window.ofSpec (Memref.whole main_arg0) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1024x256 : Shape := ⟨2, ![1024, 256]⟩
abbrev S1024x1024 : Shape := ⟨2, ![1024, 1024]⟩
abbrev S1024x1x256 : Shape := ⟨3, ![1024, 1, 256]⟩
abbrev S1x1024x256 : Shape := ⟨3, ![1, 1024, 256]⟩
abbrev S1024x1024x256 : Shape := ⟨3, ![1024, 1024, 256]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x1024, .i32⟩
  | .hbm, ⟨3, _⟩ => ⟨S1024x1x256, .f32⟩
  | .hbm, ⟨4, _⟩ => ⟨S1x1024x256, .f32⟩
  | .hbm, ⟨5, _⟩ => ⟨S1024x1024x256, .f32⟩
  | .hbm, ⟨6, _⟩ => ⟨S1024x1024x256, .f32⟩
  | .hbm, ⟨7, _⟩ => ⟨S1024x1024x256, .f32⟩
  | .hbm, ⟨8, _⟩ => ⟨S1024x1024x256, .f32⟩
  | .hbm, ⟨9, _⟩ => ⟨S_, .f32⟩
  | .hbm, ⟨10, _⟩ => ⟨S1024x1024, .f32⟩
  | .hbm, ⟨11, _⟩ => ⟨S_, .i32⟩
  | .hbm, ⟨12, _⟩ => ⟨S1024x1024, .i32⟩
  | .hbm, ⟨13, _⟩ => ⟨S1024x1024, .i1⟩
  | .hbm, ⟨14, _⟩ => ⟨S_, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S_, .f32⟩
  | .hbm, ⟨19, _⟩ => ⟨S_, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  bcast_S1024x256_S1024x1x256_0_2 : S1024x256.BroadcastsInDim S1024x1x256 (![0, 2] : Fin 2 → Fin S1024x1x256.rank)
  bcast_S1024x256_S1x1024x256_1_2 : S1024x256.BroadcastsInDim S1x1024x256 (![1, 2] : Fin 2 → Fin S1x1024x256.rank)
  bcast_S1024x1x256_S1024x1024x256_0_1_2 : S1024x1x256.BroadcastsInDim S1024x1024x256 (![0, 1, 2] : Fin 3 → Fin S1024x1024x256.rank)
  bcast_S1x1024x256_S1024x1024x256_0_1_2 : S1x1024x256.BroadcastsInDim S1024x1024x256 (![0, 1, 2] : Fin 3 → Fin S1024x1024x256.rank)
  reducesTo_S1024x1024x256_S1024x1024_d2 : S1024x1024x256.ReducesTo [2] S1024x1024
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts₀]

class Facts : Prop extends Facts₀ where

variable [Facts]
-- ==== Proof.PairLoss.lean ====
/-
  The quantity both programs compute, over plain natural-number indices.

  For two arrays X, Y of 1024 rows of 256 extended reals and a 1024 x 1024 array A of 32-bit words:
    dist r c   = sum over k < 256 of |X[r,k] - Y[c,k]|      (the L1 distance of row r of X and row c of Y)
    loss r c   = dist r c if A[r,c] is the word 1, else 1 / dist r c
    rowTotal r = sum over c < 1024 of loss r c
    total      = sum over r < 1024 of rowTotal r
  |a| is max a (-a), and 1 / d is the extended-real quotient of the ideal instance.  Sums over an initial
  segment of the naturals regroup into equal blocks (`sum_range_blocks`) and split at any point, and that is all
  the algebra the two programs differ by: addition on the extended reals is commutative and associative, so no
  finiteness of the entries is used anywhere.
-/
import Idealize.ShloMosaic.PureOps.Ideal
import Idealize.ShloMosaic.PureOps.Ideal.Laws
import Idealize.ShloMosaic.Lib.ValueIdx

noncomputable section

namespace Cert.PairLoss

open Idealize.ShloMosaic Idealize.ShloMosaic.ValueIdx

/-- A natural number as an index below `n`, taken modulo `n`: a total way to read an array at a natural index. -/
def cl (n : ℕ) (h : 0 < n) (r : ℕ) : Fin n := ⟨r % n, Nat.mod_lt _ h⟩

theorem cl_val {n : ℕ} (h : 0 < n) (a : Fin n) : cl n h a.val = a := Fin.ext (Nat.mod_eq_of_lt a.isLt)

theorem cl_of_lt {n : ℕ} (h : 0 < n) (r : ℕ) (hr : r < n) : cl n h r = ⟨r, hr⟩ := Fin.ext (Nat.mod_eq_of_lt hr)

/-- Entry (r, k) of a 1024 x 256 array. -/
def rd (X : (⟨2, ![1024, 256]⟩ : Shape).Idx → EReal) (r k : ℕ) : EReal :=
  X (ix2 (cl 1024 (by norm_num) r) (cl 256 (by norm_num) k))

/-- Entry (r, c) of a 1024 x 1024 array of words. -/
def rdI (A : (⟨2, ![1024, 1024]⟩ : Shape).Idx → BitVec 32) (r c : ℕ) : BitVec 32 :=
  A (ix2 (cl 1024 (by norm_num) r) (cl 1024 (by norm_num) c))

theorem rd_fin (X : (⟨2, ![1024, 256]⟩ : Shape).Idx → EReal) (a : Fin 1024) (k : Fin 256) :
    rd X a.val k.val = X (ix2 a k) := by
  unfold rd; rw [cl_val, cl_val]

theorem rdI_fin (A : (⟨2, ![1024, 1024]⟩ : Shape).Idx → BitVec 32) (a b : Fin 1024) :
    rdI A a.val b.val = A (ix2 a b) := by
  unfold rdI; rw [cl_val, cl_val]

/-- |a - b| on the extended reals. -/
def absd (a b : EReal) : EReal := max (a - b) (-(a - b))

/-- The L1 distance of row r of X and row c of Y. -/
def dist (X Y : (⟨2, ![1024, 256]⟩ : Shape).Idx → EReal) (r c : ℕ) : EReal :=
  ∑ k ∈ Finset.range 256, absd (rd X r k) (rd Y c k)

/-- The distance itself where the word is 1, its reciprocal elsewhere. -/
def pick (w : BitVec 32) (d : EReal) : EReal :=
  Scalar.select (IntOp.cmpi .eq w 1#32) d (Ideal.div (Ideal.ofBits .f32 0x3F800000#32) d)

def loss (X Y : (⟨2, ![1024, 256]⟩ : Shape).Idx → EReal) (A : (⟨2, ![1024, 1024]⟩ : Shape).Idx → BitVec 32) (r c : ℕ) : EReal :=
  pick (rdI A r c) (dist X Y r c)

def rowTotal (X Y : (⟨2, ![1024, 256]⟩ : Shape).Idx → EReal) (A : (⟨2, ![1024, 1024]⟩ : Shape).Idx → BitVec 32) (r : ℕ) : EReal :=
  ∑ c ∈ Finset.range 1024, loss X Y A r c

def total (X Y : (⟨2, ![1024, 256]⟩ : Shape).Idx → EReal) (A : (⟨2, ![1024, 1024]⟩ : Shape).Idx → BitVec 32) : EReal :=
  ∑ r ∈ Finset.range 1024, rowTotal X Y A r

/-- A sum over the first b·a naturals is the sum over a consecutive blocks of b. -/
theorem sum_range_blocks {M : Type*} [AddCommMonoid M] (f : ℕ → M) (b : ℕ) :
    ∀ a : ℕ, ∑ x ∈ Finset.range (b * a), f x = ∑ i ∈ Finset.range a, ∑ p ∈ Finset.range b, f (b * i + p)
  | 0 => by simp
  | a + 1 => by
    rw [Nat.mul_succ, Finset.sum_range_add, sum_range_blocks f b a, Finset.sum_range_succ]

/-- The distance as the sum over the first 128 columns plus the sum over the last 128. -/
theorem dist_halves (X Y : (⟨2, ![1024, 256]⟩ : Shape).Idx → EReal) (r c : ℕ) :
    (∑ k : Fin 128, absd (rd X r k.val) (rd Y c k.val)) + ∑ k : Fin 128, absd (rd X r (128 + k.val)) (rd Y c (128 + k.val))
      = dist X Y r c := by
  unfold dist
  rw [show (256 : ℕ) = 128 + 128 from rfl, Finset.sum_range_add, Finset.sum_range, Finset.sum_range]

/-- A row's total as the sum over eight consecutive blocks of 128 columns. -/
theorem rowTotal_blocks (X Y : (⟨2, ![1024, 256]⟩ : Shape).Idx → EReal) (A : (⟨2, ![1024, 1024]⟩ : Shape).Idx → BitVec 32) (r : ℕ) :
    rowTotal X Y A r = ∑ s ∈ Finset.range 8, ∑ q ∈ Finset.range 128, loss X Y A r (128 * s + q) := by
  unfold rowTotal
  rw [show (1024 : ℕ) = 128 * 8 from rfl, sum_range_blocks]

/-- The total written with sums over finite index types, as a program read index by index states it. -/
theorem total_fin (X Y : (⟨2, ![1024, 256]⟩ : Shape).Idx → EReal) (A : (⟨2, ![1024, 1024]⟩ : Shape).Idx → BitVec 32) :
    (∑ a : Fin 1024, ∑ b : Fin 1024, pick (A (ix2 a b)) (∑ k : Fin 256, absd (X (ix2 a k)) (Y (ix2 b k)))) = total X Y A := by
  unfold total rowTotal
  rw [Finset.sum_range]
  refine Finset.sum_congr rfl fun a _ => ?_
  rw [Finset.sum_range]
  refine Finset.sum_congr rfl fun b _ => ?_
  unfold loss dist
  rw [rdI_fin, Finset.sum_range]
  refine congrArg _ (Finset.sum_congr rfl fun k _ => ?_)
  rw [rd_fin, rd_fin]

end Cert.PairLoss

end
-- ==== Proof.LibKeepdims.lean ====
/-
  Two layout operations of a sum taken with the reduced axis kept, read at an index.  A vector of length a viewed as
  a column [a, 1] holds, at (i, 0), the vector's entry i; a column [a, 1] broadcast along a new second axis to [a, b]
  holds, at (i, c), the column's entry (i, 0).  Together they say that a row-wise quantity, kept as a column and
  spread over a block, is read at (i, c) as the quantity of row i.
-/
import Idealize.ShloMosaic.Lib.Pipeline.Value
import Idealize.ShloMosaic.Lib.ValueIdx

namespace Idealize.ShloMosaic.ValueIdx

variable {α : Type}

/-- A vector [a] cast to a column [a, 1] reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (i, c), the column's entry of row i. -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ValueIdx
-- ==== Proof.LibPairBroadcast.lean ====
/-
  Layout operations of an all-pairs comparison of the rows of two matrices, read at an index.  A matrix [a, b]
  viewed as [a, 1, b] holds, at (i, 0, k), its entry (i, k); spread along the new middle axis to [a, c, b] it holds
  that entry at every (i, j, k).  A matrix [c, b] viewed as [1, c, b] and spread along the new leading axis to
  [a, c, b] holds, at (i, j, k), its entry (j, k).  Together: the cube whose entry (i, j, k) pairs row i of the first
  matrix with row j of the second at column k.
-/
import Idealize.ShloMosaic.Lib.Pipeline.Value
import Idealize.ShloMosaic.Lib.ValueIdx
import Idealize.ShloMosaic.Lib.ValueLayout

namespace Idealize.ShloMosaic.ValueIdx

variable {α : Type}

/-- A matrix [a, b] cast to [a, 1, b] reads, at (i, u, k), the matrix at (i, k), whatever the unit coordinate u. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (k : Fin b) :
    shapeCast ⟨3, ![a, 1, b]⟩ x h (ix3 i u k) = x (ix2 i k) :=
  shapeCast_apply x h _ _ (by
    have hu : u.val = 0 := by omega
    rw [Shape.rowMajor_val_three, Shape.rowMajor_val_two]
    show i.val * b + k.val = (i.val * 1 + u.val) * b + k.val
    rw [hu, Nat.mul_one, Nat.add_zero])

/-- An array [a, 1, b] broadcast to [a, c, b] reads, at (i, j, k), the operand at (i, 0, k). -/
theorem broadcastTo_a1b_acb_apply {a c b : ℕ} (v : (⟨3, ![a, 1, b]⟩ : Shape).Idx → α)
    (h : (⟨3, ![a, 1, b]⟩ : Shape).Broadcasts ⟨3, ![a, c, b]⟩) (i : Fin a) (j : Fin c) (k : Fin b) :
    broadcastTo ⟨3, ![a, c, b]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if b = 1 then 0 else k.val
    split
    · have := k.isLt; omega
    · rfl

/-- An array [1, c, b] broadcast to [a, c, b] reads, at (i, j, k), the operand at (0, j, k). -/
theorem broadcastTo_1cb_acb_apply {a c b : ℕ} (v : (⟨3, ![1, c, b]⟩ : Shape).Idx → α)
    (h : (⟨3, ![1, c, b]⟩ : Shape).Broadcasts ⟨3, ![a, c, b]⟩) (i : Fin a) (j : Fin c) (k : Fin b) :
    broadcastTo ⟨3, ![a, c, b]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if c = 1 then 0 else j.val
    split
    · have := j.isLt; omega
    · rfl
  | ⟨2, _⟩ =>
    show k.val = if b = 1 then 0 else k.val
    split
    · have := k.isLt; omega
    · rfl

end Idealize.ShloMosaic.ValueIdx
-- ==== Proof.TileStep.lean ====
/-
  One grid step of the kernel, read at an index.

  At a grid point the body holds a block of 128 rows of X, a block of 128 rows of Y (each 256 columns wide, read as
  a left and a right half of 128 columns), the matching 128 x 128 block of words, and a column of 128 running
  sums.  It leaves, in row p of the column,
      old[p] + sum over q < 128 of pick(word[p,q], d[p,q]),
      d[p,q] = (0 + sum over k < 128 of |x[p,k] - y[q,k]|) + sum over k < 128 of |x[p,128+k] - y[q,128+k]|.
  The cube |x[p,k] - y[q,k]| is built by viewing the x block as [128,1,128] and the y block as [1,128,128] and
  spreading both to [128,128,128]; the sums over k and over q are lane reductions from a zero accumulator.
-/
import proofs.«173745_j35296041238974_1_alg».proof.Proof.Gen.KernelIdeal.Skeleton
import proofs.«173745_j35296041238974_1_alg».proof.Proof.PairLoss
import proofs.«173745_j35296041238974_1_alg».proof.Proof.LibKeepdims
import proofs.«173745_j35296041238974_1_alg».proof.Proof.LibPairBroadcast
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tile

open Idealize.ShloMosaic Idealize.ShloMosaic.ValueIdx
open Cert.KernelIdeal Cert.KernelIdeal.Gen
open Cert.PairLoss (absd pick)

/-- |v[p,k] - a[q,k]| over all triples (p, q, k): the two blocks spread over a cube, subtracted, absolute value. -/
def cube (v a : FVec Ideal S128x128 .f32) : FVec Ideal S128x128x128 .f32 :=
  absf (subf (broadcastTo S128x128x128 (shapeCast S128x1x128 v shapeCasts_S128x128_S128x1x128) broadcasts_S128x1x128_S128x128x128)
    (broadcastTo S128x128x128 (shapeCast S1x128x128 a shapeCasts_S128x128_S1x128x128) broadcasts_S1x128x128_S128x128x128))

theorem cube_apply (v a : FVec Ideal S128x128 .f32) (p q k : Fin 128) :
    cube v a (ix3 p q k) = absd (v (ix2 p k)) (a (ix2 q k)) := by
  show absd (broadcastTo S128x128x128 (shapeCast S128x1x128 v shapeCasts_S128x128_S128x1x128) broadcasts_S128x1x128_S128x128x128 (ix3 p q k))
      (broadcastTo S128x128x128 (shapeCast S1x128x128 a shapeCasts_S128x128_S1x128x128) broadcasts_S1x128x128_S128x128x128 (ix3 p q k)) = _
  rw [broadcastTo_a1b_acb_apply, shapeCast_ab_a1b_apply, broadcastTo_1cb_acb_apply, shapeCast_ab_1ab_apply]

/-- The sum over the last axis of a cube, from a zero accumulator. -/
def laneSum (x : FVec Ideal S128x128x128 .f32) : FVec Ideal S128x128 .f32 :=
  multiReduction .add [2] S128x128 x 0x00000000#32 reduces_S128x128x128_S128x128 (.inl rfl) rfl

theorem laneSum_apply (x : FVec Ideal S128x128x128 .f32) (p q : Fin 128) :
    laneSum x (ix2 p q) = ∑ k : Fin 128, x (ix3 p q k) := by
  refine (Ideal.multiReduction_add_single x 0x00000000#32 reduces_S128x128x128_S128x128 (.inl rfl) rfl (ix2 p q)).trans ?_
  refine Finset.sum_congr rfl fun k _ => congrArg x ?_
  funext a
  match a with
  | ⟨0, _⟩ => rfl
  | ⟨1, _⟩ => rfl
  | ⟨2, _⟩ => rfl

/-- The sum along each row of a square block, kept as a column. -/
def rowSum (x : FVec Ideal S128x128 .f32) : FVec Ideal S128x1 .f32 :=
  shapeCast S128x1 (multiReduction .add [1] S128 x 0x00000000#32 reduces_S128x128_S128 (.inl rfl) rfl) shapeCasts_S128_S128x1

theorem rowSum_apply (x : FVec Ideal S128x128 .f32) (p : Fin 128) (u : Fin 1) :
    rowSum x (ix2 p u) = ∑ q : Fin 128, x (ix2 p q) := by
  refine (shapeCast_a_a1_apply _ shapeCasts_S128_S128x1 p u).trans ?_
  refine (Ideal.multiReduction_add_single x 0x00000000#32 reduces_S128x128_S128 (.inl rfl) rfl (ix1 p)).trans ?_
  refine Finset.sum_congr rfl fun q _ => congrArg x ?_
  funext a
  match a with
  | ⟨0, _⟩ => rfl
  | ⟨1, _⟩ => rfl

/-- The distance block: zero, plus the left halves' lane sum, plus the right halves'. -/
def distBlock (v4 v5 v14 v15 : FVec Ideal S128x128 .f32) : FVec Ideal S128x128 .f32 :=
  addf (addf (broadcast S128x128 (Scalar.ofBits (F := Ideal) .f32 0x00000000#32)) (laneSum (cube v4 v5))) (laneSum (cube v14 v15))

theorem distBlock_apply (v4 v5 v14 v15 : FVec Ideal S128x128 .f32) (p q : Fin 128) :
    distBlock v4 v5 v14 v15 (ix2 p q)
      = (∑ k : Fin 128, absd (v4 (ix2 p k)) (v5 (ix2 q k))) + ∑ k : Fin 128, absd (v14 (ix2 p k)) (v15 (ix2 q k)) := by
  show (Ideal.ofBits .f32 0x00000000#32 + laneSum (cube v4 v5) (ix2 p q)) + laneSum (cube v14 v15) (ix2 p q) = _
  rw [laneSum_apply, laneSum_apply, Ideal.ofBits_zero_f32, zero_add]
  simp only [cube_apply]

/-- The loss block: the distance where the word is 1, its reciprocal elsewhere. -/
def lossBlock (v4 v5 v14 v15 : FVec Ideal S128x128 .f32) (v24 : IVec S128x128 32) : FVec Ideal S128x128 .f32 :=
  select (cmpi .eq v24 (broadcast S128x128 (1#32 : BitVec 32))) (distBlock v4 v5 v14 v15)
    (divf (broadcast S128x128 (Scalar.ofBits (F := Ideal) .f32 0x3F800000#32)) (distBlock v4 v5 v14 v15))

theorem lossBlock_apply (v4 v5 v14 v15 : FVec Ideal S128x128 .f32) (v24 : IVec S128x128 32) (p q : Fin 128) :
    lossBlock v4 v5 v14 v15 v24 (ix2 p q) = pick (v24 (ix2 p q)) (distBlock v4 v5 v14 v15 (ix2 p q)) := rfl

/-- The body's arithmetic is the old column plus the row sums of the loss block. -/
theorem pay3_eq (v4 v5 v14 v15 : FVec Ideal S128x128 .f32) (v24 : IVec S128x128 32) (v32 : FVec Ideal S128x1 .f32) :
    k0_pay3 (F := Ideal) v4 v5 v14 v15 v24 v32 = addf v32 (rowSum (lossBlock v4 v5 v14 v15 v24)) := rfl

theorem pay3_apply (v4 v5 v14 v15 : FVec Ideal S128x128 .f32) (v24 : IVec S128x128 32) (v32 : FVec Ideal S128x1 .f32)
    (p : Fin 128) (u : Fin 1) :
    k0_pay3 (F := Ideal) v4 v5 v14 v15 v24 v32 (ix2 p u)
      = v32 (ix2 p u) + ∑ q : Fin 128, pick (v24 (ix2 p q))
          ((∑ k : Fin 128, absd (v4 (ix2 p k)) (v5 (ix2 q k))) + ∑ k : Fin 128, absd (v14 (ix2 p k)) (v15 (ix2 q k))) := by
  rw [pay3_eq]
  show v32 (ix2 p u) + rowSum (lossBlock v4 v5 v14 v15 v24) (ix2 p u) = _
  rw [rowSum_apply]
  refine congrArg (v32 (ix2 p u) + ·) (Finset.sum_congr rfl fun q _ => ?_)
  rw [lossBlock_apply, distBlock_apply]

end Cert.KernelIdeal.Tile

end
-- ==== Proof.TileRows.lean ====
/-
  One grid step over rows of the full arrays.

  The body loads the left half (columns 0..127) and the right half (columns 128..255) of each 128 x 256 row block.
  When the x block is rows R .. R+127 of X, the y block rows C .. C+127 of Y and the word block the matching block
  of A, the two half sums are the distance of row R+p of X and row C+q of Y split at column 128, so the step adds
  to row p of the running column the sum over q < 128 of loss (R+p) (C+q).
-/
import proofs.«173745_j35296041238974_1_alg».proof.Proof.TileStep

noncomputable section

namespace Cert.KernelIdeal.Tile

open Idealize.ShloMosaic Idealize.ShloMosaic.ValueIdx
open Cert.KernelIdeal Cert.KernelIdeal.Gen
open Cert.PairLoss

variable {F : FTy → Type} [FloatOps F]

/-- What one grid step leaves in the running column, at any instance: the body's arithmetic over the left and right
    column halves of the two row blocks, the word block and the old column. -/
def step (x0 x1 : Vec F S128x256 .f32) (x2 : Vec F S128x128 .i32) (xs : Vec F S128x1 .f32) : Vec F S128x1 .f32 :=
  k0_pay1 (k0_pay3
    (View.ld x0 (Rect.unit (s := S128x256) ![0, 0] S128x128.size inb_S128x256_S128x128_0_0))
    (View.ld x1 (Rect.unit (s := S128x256) ![0, 0] S128x128.size inb_S128x256_S128x128_0_0))
    (View.ld x0 (Rect.unit (s := S128x256) ![0, 128] S128x128.size inb_S128x256_S128x128_0_128))
    (View.ld x1 (Rect.unit (s := S128x256) ![0, 128] S128x128.size inb_S128x256_S128x128_0_128)) x2 xs)

/-- Column k of the left half, and of the right half, as a column of the 256-wide block. -/
abbrev lo (k : Fin 128) : Fin 256 := ⟨k.val, by omega⟩
abbrev hi (k : Fin 128) : Fin 256 := ⟨128 + k.val, by omega⟩

theorem idx_lo (p k : Fin 128) :
    (Rect.unit (s := S128x256) ![0, 0] S128x128.size inb_S128x256_S128x128_0_0).idx (ix2 p k) = ix2 p (lo k) :=
  funext fun a => Fin.ext (by
    match a with
    | ⟨0, _⟩ => show 0 + 1 * p.val = p.val; omega
    | ⟨1, _⟩ => show 0 + 1 * k.val = k.val; omega)

theorem idx_hi (p k : Fin 128) :
    (Rect.unit (s := S128x256) ![0, 128] S128x128.size inb_S128x256_S128x128_0_128).idx (ix2 p k) = ix2 p (hi k) :=
  funext fun a => Fin.ext (by
    match a with
    | ⟨0, _⟩ => show 0 + 1 * p.val = p.val; omega
    | ⟨1, _⟩ => show 128 + 1 * k.val = 128 + k.val; omega)

/-- The step over rows: blocks that are rows R.., C.. of the full arrays add the block's losses to the column. -/
theorem step_rows (X Y : (⟨2, ![1024, 256]⟩ : Shape).Idx → EReal) (A : (⟨2, ![1024, 1024]⟩ : Shape).Idx → BitVec 32) (R C : ℕ)
    (x0 x1 : Vec Ideal S128x256 .f32) (x2 : Vec Ideal S128x128 .i32) (xs : Vec Ideal S128x1 .f32)
    (h0 : ∀ (p : Fin 128) (k : Fin 256), x0 (ix2 p k) = rd X (R + p.val) k.val)
    (h1 : ∀ (q : Fin 128) (k : Fin 256), x1 (ix2 q k) = rd Y (C + q.val) k.val)
    (h2 : ∀ (p q : Fin 128), x2 (ix2 p q) = rdI A (R + p.val) (C + q.val))
    (p : Fin 128) (u : Fin 1) :
    step x0 x1 x2 xs (ix2 p u) = xs (ix2 p u) + ∑ q ∈ Finset.range 128, loss X Y A (R + p.val) (C + q) := by
  unfold step k0_pay1
  rw [shapeCast_self, pay3_apply]
  refine congrArg (xs (ix2 p u) + ·) ?_
  rw [Finset.sum_range]
  refine Finset.sum_congr rfl fun q _ => ?_
  unfold loss
  rw [h2, ← dist_halves]
  refine congrArg (pick _) (congrArg₂ (· + ·) (Finset.sum_congr rfl fun k _ => ?_) (Finset.sum_congr rfl fun k _ => ?_))
  · show absd (x0 _) (x1 _) = _
    rw [idx_lo, idx_lo, h0, h1]
  · show absd (x0 _) (x1 _) = _
    rw [idx_hi, idx_hi, h0, h1]

end Cert.KernelIdeal.Tile

end
-- ==== Proof.Pieces.lean ====
/-
  What each control case of the kernel body leaves behind, as the tile step.

  The body has three cases along the column-tile axis.  At the first tile it stores a zero column into the running
  sums, reads it back and stores zero plus this tile's row sums; at a middle tile it stores the old column plus this
  tile's row sums; at the last tile it does the same and then copies the running sums to the output block.  In every
  case the running sums end at the tile step of the point's three blocks and of what they held before (the zero
  column at the first tile), and at the last tile the output block holds the same column.
-/
import proofs.«173745_j35296041238974_1_alg».proof.Proof.Gen.KernelIdeal.Frame
import proofs.«173745_j35296041238974_1_alg».proof.Proof.TileRows
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen Cert.KernelIdeal.Tile

variable {F : FTy → Type} [FloatOps F]

theorem hz : (![0, 0] : Fin 2 → Nat) = fun _ => 0 := funext fun a => by fin_cases a <;> rfl

/-- A middle tile: the running sums end at the step over what they held. -/
theorem scratch_mid (c : Dev nD) (i : grid0.Coords) (arg2 : Memref sig .tc .vmem S128x256 .f32) (harg2 : arg2.IsWhole) (arg3 : Memref sig .tc .vmem S128x256 .f32) (harg3 : arg3.IsWhole) (arg4 : Memref sig .tc .vmem S128x128 .i32) (harg4 : arg4.IsWhole) (arg5 : Memref sig .tc .vmem S128x1 .f32) (harg5 : arg5.IsWhole) (arg6 : Memref sig .tc .vmem S128x1 .f32) (harg6 : arg6.IsWhole) (hc0 : ¬cond0_0 i) (hc1 : ¬cond0_1 i)
    (x0 : Vec F S128x256 .f32) (x1 : Vec F S128x256 .f32) (x2 : Vec F S128x128 .i32) (xs0 : Vec F S128x1 .f32) :
    sout0_B_0 c i arg2 harg2 arg3 harg3 arg4 harg4 arg5 harg5 arg6 harg6 hc0 hc1 x0 x1 x2 xs0 = step x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz]
  simp only [View.readAt_eq_ld, harg2.read_unread, harg3.read_unread, harg4.read_unread, harg6.read_unread, View.ld_unit_zero (S := S128x1) hz, View.ld_unit_zero (S := S128x128) hz]
  rfl

/-- The last tile: the running sums end at the step over what they held, -/
theorem scratch_last (c : Dev nD) (i : grid0.Coords) (arg2 : Memref sig .tc .vmem S128x256 .f32) (harg2 : arg2.IsWhole) (arg3 : Memref sig .tc .vmem S128x256 .f32) (harg3 : arg3.IsWhole) (arg4 : Memref sig .tc .vmem S128x128 .i32) (harg4 : arg4.IsWhole) (arg5 : Memref sig .tc .vmem S128x1 .f32) (harg5 : arg5.IsWhole) (arg6 : Memref sig .tc .vmem S128x1 .f32) (harg6 : arg6.IsWhole) (hc0 : ¬cond0_0 i) (hc1 : cond0_1 i)
    (x0 : Vec F S128x256 .f32) (x1 : Vec F S128x256 .f32) (x2 : Vec F S128x128 .i32) (xs0 : Vec F S128x1 .f32) :
    sout0_C_0 c i arg2 harg2 arg3 harg3 arg4 harg4 arg5 harg5 arg6 harg6 hc0 hc1 x0 x1 x2 xs0 = step x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg6.read_unread, View.ld_unit_zero (S := S128x1) hz, View.ld_unit_zero (S := S128x128) hz]
  rfl

/-- and the output block holds the same column: a copy of the running sums read back after their store. -/
theorem out_last (c : Dev nD) (i : grid0.Coords) (arg2 : Memref sig .tc .vmem S128x256 .f32) (harg2 : arg2.IsWhole) (arg3 : Memref sig .tc .vmem S128x256 .f32) (harg3 : arg3.IsWhole) (arg4 : Memref sig .tc .vmem S128x128 .i32) (harg4 : arg4.IsWhole) (arg5 : Memref sig .tc .vmem S128x1 .f32) (harg5 : arg5.IsWhole) (arg6 : Memref sig .tc .vmem S128x1 .f32) (harg6 : arg6.IsWhole) (hc0 : ¬cond0_0 i) (hc1 : cond0_1 i)
    (x0 : Vec F S128x256 .f32) (x1 : Vec F S128x256 .f32) (x2 : Vec F S128x128 .i32) (xs0 : Vec F S128x1 .f32) :
    out0_C_3 c i arg2 harg2 arg3 harg3 arg4 harg4 arg5 harg5 arg6 harg6 hc0 hc1 x0 x1 x2 xs0 = step x0 x1 x2 xs0 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz, View.readCov_unit_zero (S := S128x1) _ hz]
  simp only [View.readAt_eq_ld, harg2.read_unread, harg3.read_unread, harg4.read_unread, harg6.read_unread, View.ld_unit_zero (S := S128x1) hz, View.ld_unit_zero (S := S128x128) hz]
  rfl

/-- The first tile: the running sums end at the step over the zero column. -/
theorem scratch_first (c : Dev nD) (i : grid0.Coords) (arg2 : Memref sig .tc .vmem S128x256 .f32) (harg2 : arg2.IsWhole) (arg3 : Memref sig .tc .vmem S128x256 .f32) (harg3 : arg3.IsWhole) (arg4 : Memref sig .tc .vmem S128x128 .i32) (harg4 : arg4.IsWhole) (arg5 : Memref sig .tc .vmem S128x1 .f32) (harg5 : arg5.IsWhole) (arg6 : Memref sig .tc .vmem S128x1 .f32) (harg6 : arg6.IsWhole) (hc0 : cond0_0 i) (hc1 : ¬cond0_1 i)
    (x0 : Vec F S128x256 .f32) (x1 : Vec F S128x256 .f32) (x2 : Vec F S128x128 .i32) :
    sout0_A_0 c i arg2 harg2 arg3 harg3 arg4 harg4 arg5 harg5 arg6 harg6 hc0 hc1 x0 x1 x2 = step x0 x1 x2 (k0_pay2 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S128x1) hz, View.readCov_unit_zero (S := S128x1) _ hz]
  simp only [View.readAt_eq_ld, harg2.read_unread, harg3.read_unread, harg4.read_unread, harg6.read_unread, View.ld_unit_zero (S := S128x1) hz, View.ld_unit_zero (S := S128x128) hz]
  rfl

end Cert.KernelIdeal.Pieces

end
-- ==== Proof.Blocks.lean ====
/-
  Which rows and columns each window's block holds at a grid point.

  The grid is 8 x 8, point t standing for row tile t / 8 and column tile t % 8.  The X window's block at t is rows
  128 (t / 8) .. of X, the Y window's block rows 128 (t % 8) .. of Y, the word window's block the 128 x 128 block of
  A at (t / 8, t % 8), and the output window's block rows 128 (t / 8) .. of the 1024 x 1 result.
-/
import proofs.«173745_j35296041238974_1_alg».proof.Proof.Gen.KernelIdeal.Frame
import proofs.«173745_j35296041238974_1_alg».proof.Proof.PairLoss
import Idealize.ShloMosaic.Lib.Pipeline.Value

noncomputable section

namespace Cert.KernelIdeal.Blocks

open Idealize.ShloMosaic Idealize.ShloMosaic.TcCoe Idealize.SL.Sem Idealize.ShloMosaic.ValueIdx
open Cert.KernelIdeal Cert.KernelIdeal.Gen Cert.PairLoss

variable (m : (ℓ : Loc nD τ sig) → Buf (Elt Ideal) ℓ)

/-- Which block each window takes at each grid point: the four index maps, decided once over the 64 points. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = t.val % 8
    ∧ win0_3.index t (0 : Fin 2) = t.val / 8 ∧ win0_3.index t (1 : Fin 2) = 0 :=
  (by decide +kernel : ∀ t : Fin grid0.N, _)

/-- The three argument arrays on core c. -/
abbrev X (c : Dev nD) : (⟨2, ![1024, 256]⟩ : Shape).Idx → EReal := m ((c : Thread nD τ).loc main_arg0)
abbrev Y (c : Dev nD) : (⟨2, ![1024, 256]⟩ : Shape).Idx → EReal := m ((c : Thread nD τ).loc main_arg1)
abbrev A (c : Dev nD) : (⟨2, ![1024, 1024]⟩ : Shape).Idx → BitVec 32 := m ((c : Thread nD τ).loc main_arg2)

/-- The X window's block at point t is rows 128 (t / 8) .. of X. -/
theorem xblock_apply (c : Dev nD) (t : Fin cfg0.N) (p : Fin 128) (k : Fin 256) :
    (iblk m c 0 t : Vec Ideal S128x256 .f32) (ix2 p k) = rd (X m c) (128 * (t.val / 8) + p.val) k.val := by
  have hN : t.val < 64 := lt_of_lt_of_eq t.isLt (show cfg0.N = 64 from N_0)
  have hr : 128 * (t.val / 8) + p.val < 1024 := by have := p.isLt; omega
  unfold rd
  rw [cl_of_lt _ _ hr, cl_val]
  unfold iblk
  rw [View.read_apply]
  show V m c main_arg0 _ = m ((c : Thread nD τ).loc main_arg0) _
  unfold V
  congr 1
  funext a
  apply Fin.ext
  obtain ⟨e0, e1, -⟩ := idx_facts t
  match a with
  | ⟨0, _⟩ => show win0_0.index t (0 : Fin 2) * 128 + 1 * p.val = 128 * (t.val / 8) + p.val; rw [e0]; omega
  | ⟨1, _⟩ => show win0_0.index t (1 : Fin 2) * 256 + 1 * k.val = k.val; rw [e1]; omega

/-- The Y window's block at point t is rows 128 (t % 8) .. of Y. -/
theorem yblock_apply (c : Dev nD) (t : Fin cfg0.N) (q : Fin 128) (k : Fin 256) :
    (iblk m c 1 t : Vec Ideal S128x256 .f32) (ix2 q k) = rd (Y m c) (128 * (t.val % 8) + q.val) k.val := by
  have hr : 128 * (t.val % 8) + q.val < 1024 := by have := q.isLt; omega
  unfold rd
  rw [cl_of_lt _ _ hr, cl_val]
  unfold iblk
  rw [View.read_apply]
  show V m c main_arg1 _ = m ((c : Thread nD τ).loc main_arg1) _
  unfold V
  congr 1
  funext a
  apply Fin.ext
  obtain ⟨-, -, e2, e3, -⟩ := idx_facts t
  match a with
  | ⟨0, _⟩ => show win0_1.index t (0 : Fin 2) * 128 + 1 * q.val = 128 * (t.val % 8) + q.val; rw [e2]; omega
  | ⟨1, _⟩ => show win0_1.index t (1 : Fin 2) * 256 + 1 * k.val = k.val; rw [e3]; omega

/-- The word window's block at point t is the block of A at (t / 8, t % 8). -/
theorem wblock_apply (c : Dev nD) (t : Fin cfg0.N) (p q : Fin 128) :
    (iblk m c 2 t : Vec Ideal S128x128 .i32) (ix2 p q) = rdI (A m c) (128 * (t.val / 8) + p.val) (128 * (t.val % 8) + q.val) := by
  have hN : t.val < 64 := lt_of_lt_of_eq t.isLt (show cfg0.N = 64 from N_0)
  have hr : 128 * (t.val / 8) + p.val < 1024 := by have := p.isLt; omega
  have hc : 128 * (t.val % 8) + q.val < 1024 := by have := q.isLt; omega
  unfold rdI
  rw [cl_of_lt _ _ hr, cl_of_lt _ _ hc]
  unfold iblk
  rw [View.read_apply]
  show V m c main_arg2 _ = m ((c : Thread nD τ).loc main_arg2) _
  unfold V
  congr 1
  funext a
  apply Fin.ext
  obtain ⟨-, -, -, -, e4, e5, -⟩ := idx_facts t
  match a with
  | ⟨0, _⟩ => show win0_2.index t (0 : Fin 2) * 128 + 1 * p.val = 128 * (t.val / 8) + p.val; rw [e4]; omega
  | ⟨1, _⟩ => show win0_2.index t (1 : Fin 2) * 128 + 1 * q.val = 128 * (t.val % 8) + q.val; rw [e5]; omega

end Cert.KernelIdeal.Blocks

end
-- ==== Proof.Accum.lean ====
/-
  The running sums over the grid, and the result array of the region.

  Along each row tile the kernel walks the eight column tiles in order.  The running column of 128 sums is reset at
  the first column tile (zero plus that tile's row sums) and stepped at every later one (what it held plus that
  tile's row sums), so after column tile s of row tile i its row p holds the sum over the first 128 (s + 1) columns
  c of loss (128 i + p) c.  After the last column tile that is the row's total, and this is what the output block
  of row tile i receives and writes back.  The eight flushing points' blocks tile the 1024 x 1 result array, so the
  array ends holding, in row r, the total of row r.
-/
import proofs.«173745_j35296041238974_1_alg».proof.Proof.Pieces
import proofs.«173745_j35296041238974_1_alg».proof.Proof.Blocks

noncomputable section

namespace Cert.KernelIdeal.Accum

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Tile Cert.KernelIdeal.Blocks Cert.PairLoss

variable (m : (ℓ : Loc nD τ sig) → Buf (Elt Ideal) ℓ)

/-- What grid point n adds to row y of the running column: the losses of row 128 (n / 8) + y against the 128 columns
    of column tile n % 8. -/
def addend (c : Dev nD) (n : ℕ) (y : S128x1.Idx) : EReal :=
  ∑ q ∈ Finset.range 128, loss (X m c) (Y m c) (A m c) (128 * (n / 8) + (y 0).val) (128 * (n % 8) + q)

/-- The tile step at grid point n, on that point's three blocks. -/
theorem step_at (c : Dev nD) (n : ℕ) (h : n < cfg0.N) (xs : Vec Ideal S128x1 .f32) (y : S128x1.Idx) :
    step (iblk m c 0 ⟨n, h⟩) (iblk m c 1 ⟨n, h⟩) (iblk m c 2 ⟨n, h⟩) xs y = xs y + addend m c n y := by
  obtain ⟨p, u, rfl⟩ : ∃ (p : Fin 128) (u : Fin 1), y = ix2 p u := ⟨y 0, y 1, eq_ix2 y⟩
  exact step_rows (X m c) (Y m c) (A m c) (128 * (n / 8)) (128 * (n % 8)) _ _ _ xs
    (fun p k => xblock_apply m c ⟨n, h⟩ p k) (fun q k => yblock_apply m c ⟨n, h⟩ q k)
    (fun p q => wblock_apply m c ⟨n, h⟩ p q) p u

/-- The zero column the first tile stores. -/
theorem zero_col (y : S128x1.Idx) : k0_pay2 (F := Ideal) y = 0 := by
  show shapeCast S128x1 (broadcast S128x1 (Scalar.ofBits (F := Ideal) .f32 0x00000000#32)) shapeCasts_S128x1_S128x1 y = 0
  rw [shapeCast_self]
  exact Ideal.ofBits_zero_f32

/-- The running column after grid point n, its reset value, and its step. -/
def sums (c : Dev nD) (n : ℕ) (h : n < cfg0.N) : S128x1.Idx → EReal := (outsAt0 m c n h).2
def reset (c : Dev nD) (n : ℕ) (h : n < cfg0.N) : S128x1.Idx → EReal :=
  step (iblk m c 0 ⟨n, h⟩) (iblk m c 1 ⟨n, h⟩) (iblk m c 2 ⟨n, h⟩) (k0_pay2 (F := Ideal))
def next (c : Dev nD) (n : ℕ) (h : n < cfg0.N) (acc : S128x1.Idx → EReal) : S128x1.Idx → EReal :=
  step (iblk m c 0 ⟨n, h⟩) (iblk m c 1 ⟨n, h⟩) (iblk m c 2 ⟨n, h⟩) acc

theorem sums_reset (c : Dev nD) (n : ℕ) (h : n < cfg0.N) (h0 : n % 8 = 0) : sums m c n h = reset m c n h := by
  have h1 : ¬(⟨n, h⟩ : Fin cfg0.N).val % 8 = 7 := by dsimp only; omega
  unfold sums reset
  rw [outsAt0_A m c ⟨n, h⟩ h0 h1]
  dsimp only
  exact Pieces.scratch_first (F := Ideal) ..

theorem sums_next (c : Dev nD) (n : ℕ) (h : n + 1 < cfg0.N) (hne : ¬(n + 1) % 8 = 0) :
    sums m c (n + 1) h = next m c (n + 1) h (sums m c n (Nat.lt_of_succ_lt h)) := by
  unfold sums next
  by_cases h7 : (n + 1) % 8 = 7
  · rw [outsAt0_C m c ⟨n + 1, h⟩ hne h7]
    dsimp only
    exact Pieces.scratch_last (F := Ideal) ..
  · rw [outsAt0_B m c ⟨n + 1, h⟩ hne h7]
    dsimp only
    exact Pieces.scratch_mid (F := Ideal) ..

/-- After the last column tile of a row tile the running column holds the rows' totals. -/
theorem sums_last (c : Dev nD) (t : Fin cfg0.N) (h7 : t.val % 8 = 7) (y : S128x1.Idx) :
    sums m c t.val t.isLt y = rowTotal (X m c) (Y m c) (A m c) (128 * (t.val / 8) + (y 0).val) := by
  have h' : 8 * (t.val / 8) + t.val % 8 < cfg0.N := by rw [Nat.div_add_mod]; exact t.isLt
  rw [Pipeline.eq_accAt_of_mod (sums m c) 8 (reset m c) (next m c) (sums_reset m c)
    (fun n h hne => sums_next m c n h hne) (by norm_num) t.val t.isLt h']
  rw [Pipeline.accAt_add_apply (reset m c) (next m c) (fun _ => 0) (addend m c) (8 * (t.val / 8)) 7
    (fun h i => (step_at m c _ h _ i).trans (by rw [zero_col]))
    (fun n h acc i _ _ => step_at m c n h acc i) (t.val % 8) (by omega) h' y]
  rw [h7, zero_add, rowTotal_blocks]
  refine Finset.sum_congr rfl fun s hs => ?_
  have hs8 : s < 8 := Finset.mem_range.mp hs
  unfold addend
  rw [show (8 * (t.val / 8) + s) / 8 = t.val / 8 from by omega, show (8 * (t.val / 8) + s) % 8 = s from by omega]

/-- At a flushing point the output block holds the running column. -/
theorem out_last_eq (c : Dev nD) (t : Fin cfg0.N) (h7 : t.val % 8 = 7) :
    (outsAt0 m c t.val t.isLt).1 = sums m c t.val t.isLt := by
  have h0 : ¬t.val % 8 = 0 := by omega
  unfold sums
  rw [outsAt0_C m c t h0 h7]
  dsimp only
  refine Eq.trans (Pieces.out_last (F := Ideal) ..) ?_
  exact (Pieces.scratch_last (F := Ideal) ..).symm

/-- The region's result array: row r holds the total of row r. -/
def rowTotals (c : Dev nD) : Buf (Elt Ideal) ((c : Thread nD τ).loc main_v0) :=
  fun i => rowTotal (X m c) (Y m c) (A m c) (i 0).val

/-- What a flushing point writes back is its block of the row totals. -/
theorem flushed_eq (c : Dev nD) (t : Fin cfg0.N) (hf : (cfg0.win 3).flush t = true) :
    (dats m 0 c).flushed 3 t = ((cfg0.win 3).blk t).view.read (Elt Ideal) (rowTotals m c) := by
  have h7 : t.val % 8 = 7 := (flush0_3 t).mp hf
  show (cfg0.win 3).cut (grid0.coords t) ((dats m 0 c).after 3 t) = _
  rw [after0_3, out_last_eq m c t h7]
  funext y
  rw [View.read_apply]
  show sums m c t.val t.isLt y = rowTotals m c (((cfg0.win 3).blk t).view.emb y)
  rw [sums_last m c t h7 y]
  unfold rowTotals
  obtain ⟨-, -, -, -, -, -, e6, -⟩ := idx_facts t
  refine congrArg (rowTotal (X m c) (Y m c) (A m c)) ?_
  show 128 * (t.val / 8) + (y 0).val = win0_3.index t (0 : Fin 2) * 128 + 1 * (y 0).val
  rw [e6]; omega

/-- An index of the result array is in point t's block iff each coordinate is in the block's range. -/
theorem mem_blk (t : Fin cfg0.N) (i : S1024x1.Idx) :
    i ∈ ((cfg0.win 3).blk t).view.set ↔ ∀ a : Fin 2, win0_3.index t a * S128x1.size a ≤ (i a).val ∧ (i a).val < win0_3.index t a * S128x1.size a + S128x1.size a := by
  show i ∈ ((View.whole main_v0).slice (win0_3.rect t)).set ↔ _
  rw [View.set_slice_whole, Rect.mem_set_unit]
  exact Iff.rfl

/-- Row r of the result array is in the block of the last column tile of row tile r / 128. -/
theorem cover (i : S1024x1.Idx) : ∃ t : Fin cfg0.N, (cfg0.win 3).flush t = true ∧ i ∈ ((cfg0.win 3).blk t).view.set := by
  have hi0 : (i 0).val < 1024 := (i 0).isLt
  have hi1 : (i 1).val < 1 := (i 1).isLt
  have hN : cfg0.N = 64 := N_0
  have hb : 8 * ((i 0).val / 128) + 7 < cfg0.N := by rw [hN]; omega
  refine ⟨⟨8 * ((i 0).val / 128) + 7, hb⟩, (flush0_3 _).mpr (by show (8 * ((i 0).val / 128) + 7) % 8 = 7; omega), ?_⟩
  rw [mem_blk]
  obtain ⟨-, -, -, -, -, -, e6, e7⟩ := idx_facts ⟨8 * ((i 0).val / 128) + 7, hb⟩
  have e6' : win0_3.index ⟨8 * ((i 0).val / 128) + 7, hb⟩ (0 : Fin 2) = (8 * ((i 0).val / 128) + 7) / 8 := e6
  intro a
  match a with
  | ⟨0, _⟩ =>
    show win0_3.index ⟨8 * ((i 0).val / 128) + 7, hb⟩ (0 : Fin 2) * 128 ≤ (i 0).val ∧ (i 0).val < win0_3.index ⟨8 * ((i 0).val / 128) + 7, hb⟩ (0 : Fin 2) * 128 + 128
    rw [e6']; omega
  | ⟨1, _⟩ =>
    show win0_3.index ⟨8 * ((i 0).val / 128) + 7, hb⟩ (1 : Fin 2) * 1 ≤ (i 1).val ∧ (i 1).val < win0_3.index ⟨8 * ((i 0).val / 128) + 7, hb⟩ (1 : Fin 2) * 1 + 1
    rw [e7]; omega

/-- So the result array of the region ends holding the row totals. -/
theorem final (c : Dev nD) : (dats m 0 c).arrAt 3 cfg0.N = rowTotals m c :=
  (dats m 0 c).arrAt_eq_of_cover 3 (rowTotals m c) (flushed_eq m c) (cover)

end Cert.KernelIdeal.Accum

end
-- ==== Proof.KernelRun.lean ====
/-
  The kernel program's result is the total loss of its three arguments.

  After the region the 1024 x 1 array holds each row's total; the host then sums every entry of it from zero.  A sum
  over the indices (r, 0) of a one-column array is the sum over r, so the result is the sum over r < 1024 of the
  row totals: the total.
-/
import proofs.«173745_j35296041238974_1_alg».proof.Proof.Accum
import Idealize.ShloMosaic.Lib.StableHlo.Run

noncomputable section

namespace Cert.KernelIdeal.Result

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blocks Cert.KernelIdeal.Accum Cert.PairLoss

variable (m : (ℓ : Loc nD τ sig) → Buf (Elt Ideal) ℓ) (ρ : Dev nD → PrngReg)

/-- The result buffer is one of the buffers the lines after the region leave. -/
theorem result_mem : main_v1 ∈ Pipeline.restRefs sig cfg0.spec := by decide

/-- The sum of every entry of the row totals, from zero, is the total. -/
theorem sum_rowTotals (c : Dev nD) (i : S_.Idx) :
    Host.reduceAdd (F := Ideal) (rowTotals m c) (constant (F := Ideal) S_ .f32 0x00000000#32) reducesTo_S1024x1_S_d0_1 h_S_ i
      = total (X m c) (Y m c) (A m c) := by
  simp only [Host.reduceAdd, Ideal.hostReduceAdd_def]
  rw [Ideal.hostReduceAdd_total reducesTo_S1024x1_S_d0_1 (fun b => b.elim0) _ _ i]
  show Ideal.ofBits .f32 0x00000000#32 + _ = _
  rw [Ideal.ofBits_zero_f32, zero_add, sum_idx2]
  unfold total
  rw [Finset.sum_range]
  refine Finset.sum_congr rfl fun a _ => ?_
  rw [Fin.sum_univ_one]
  rfl

/-- What the lines after the region leave in the result buffer. -/
theorem tail_eq (c : Dev nD) :
    Pipeline.afterTail₀ cfgs (dats m) 0 (V0 m) [hostOps1] c main_v1 = fun _ => total (X m c) (Y m c) (A m c) := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.devRef .tc main_v0)
      = rowTotals m c :=
    (Pipeline.withArrays_arr spec0 launch0.win.arr_inj c _ _ 3).trans (final m c)
  rw [e]
  funext i
  exact sum_rowTotals m c i

/-- The run, read: the result at the total, the arguments unchanged. -/
theorem run : θ_run defs (onTc (τ := τ) (main (F := Ideal))) ⟨m, fun _ => 0, ρ⟩ fun r => ∀ c : Dev nD,
      r.2.mem ((c.tc : Thread nD τ).loc main_v1) = (fun _ => total (X m c) (Y m c) (A m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).2 main_v1 result_mem).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Result

end
-- ==== Proof.RefSide.lean ====
/-
  The reference program's result is the total loss of its three arguments.

  Read one host operation at a time: X and Y are spread to 1024 x 1024 x 256 so that entry (a, b, k) is
  X[a,k] - Y[b,k]; the absolute values are summed over k from zero, giving the distance of row a of X and row b of
  Y; the word array picks the distance or its reciprocal; and everything is summed from zero.  A sum over the pairs
  (a, b) is the double sum over a and b, and each finite sum is the sum over an initial segment of the naturals.
-/
import proofs.«173745_j35296041238974_1_alg».proof.Proof.Gen.ReferenceIdeal.Read
import proofs.«173745_j35296041238974_1_alg».proof.Proof.PairLoss

noncomputable section

namespace Cert.ReferenceIdeal.RefValue

open Idealize.ShloMosaic Idealize.SL.Sem Idealize.ShloMosaic.ValueIdx
open Cert.ReferenceIdeal Cert.ReferenceIdeal.Read Cert.PairLoss

/-- The distance stage at the pair (a, b). -/
theorem dist_stage (x0 x1 : (⟨S1024x256, .f32⟩ : BufTy).Contents (Elt Ideal)) (a b : Fin 1024) :
    val_main_v6 (F := Ideal) x0 x1 (ix2 a b) = ∑ k : Fin 256, absd (x0 (ix2 a k)) (x1 (ix2 b k)) := by
  rw [val_main_v6_apply, val_main_cst_apply]
  show Ideal.ofBits .f32 0x00000000#32 + _ = _
  rw [Ideal.ofBits_zero_f32, zero_add]
  refine Finset.sum_congr rfl fun k _ => ?_
  have e0 : idx_main_v0 (idx_main_v2 (idx_main_v6 (ix2 a b) k)) = ix2 a k :=
    funext fun d => Fin.ext (by match d with | ⟨0, _⟩ => rfl | ⟨1, _⟩ => rfl)
  have e1 : idx_main_v1 (idx_main_v3 (idx_main_v6 (ix2 a b) k)) = ix2 b k :=
    funext fun d => Fin.ext (by match d with | ⟨0, _⟩ => rfl | ⟨1, _⟩ => rfl)
  rw [val_main_v5_apply, val_main_v4_apply, val_main_v2_apply, val_main_v0_apply, val_main_v3_apply, val_main_v1_apply,
    e0, e1]
  rfl

/-- The reference's last stage is the total loss, at its one index. -/
theorem result_eq (x0 x1 : (⟨S1024x256, .f32⟩ : BufTy).Contents (Elt Ideal)) (x2 : (⟨S1024x1024, .i32⟩ : BufTy).Contents (Elt Ideal)) :
    val_main_v12 (F := Ideal) x0 x1 x2 = fun _ => total x0 x1 x2 := by
  funext i
  rw [val_main_v12_apply, val_main_cst_1_apply]
  show Ideal.ofBits .f32 0x00000000#32 + _ = _
  rw [Ideal.ofBits_zero_f32, zero_add, sum_idx2, ← total_fin]
  refine Finset.sum_congr rfl fun a _ => Finset.sum_congr rfl fun b _ => ?_
  rw [val_main_v11_apply, val_main_v8_apply, val_main_v7_apply, val_main_c_apply, val_main_v10_apply, val_main_v9_apply,
    val_main_cst_0_apply, dist_stage]
  rfl

end Cert.ReferenceIdeal.RefValue

end
-- ==== Proof.lean ====
/-
  Pairwise L1 distances with reciprocal masking, summed: the kernel against its reference, over the extended reals.

  For X, Y of 1024 rows of 256 numbers and a 1024 x 1024 array A of words, both programs compute
      total = sum over r, c < 1024 of  (d(r,c) if A[r,c] = 1 else 1 / d(r,c)),   d(r,c) = sum over k < 256 of |X[r,k] - Y[c,k]|.
  The reference spreads X and Y over a 1024 x 1024 x 256 cube, sums over k, picks, and sums over all pairs.  The
  kernel walks an 8 x 8 grid of 128 x 128 tiles: at a tile it forms d from the left and the right 128 columns
  separately, picks, sums each row of the tile, and adds the 128 row sums to a running column that is reset at the
  first column tile of each row tile and written to the output at the last; the host then sums the 1024 row
  totals.  The two differ only in how one sum of the same terms is grouped and in zeros added along the way, and
  addition on the extended reals is commutative and associative with 0 neutral, so the results are equal for every
  input: the precondition that the entries be finite is never used.  The idealization rewrote nothing, so the
  kernel's idealized program is its own text read over the extended reals.
-/
import proofs.«173745_j35296041238974_1_alg».proof.Defs
import proofs.«173745_j35296041238974_1_alg».proof.Proof.Gen.Kernel
import proofs.«173745_j35296041238974_1_alg».proof.Proof.Gen.Kernel.Skeleton
import proofs.«173745_j35296041238974_1_alg».proof.Proof.Gen.Kernel.Launch
import proofs.«173745_j35296041238974_1_alg».proof.Proof.Gen.Kernel.Points
import proofs.«173745_j35296041238974_1_alg».proof.Proof.Gen.Kernel.Frame
import proofs.«173745_j35296041238974_1_alg».proof.Proof.Gen.KernelIdeal
import proofs.«173745_j35296041238974_1_alg».proof.Proof.Gen.KernelIdeal.Skeleton
import proofs.«173745_j35296041238974_1_alg».proof.Proof.Gen.KernelIdeal.Launch
import proofs.«173745_j35296041238974_1_alg».proof.Proof.Gen.KernelIdeal.Points
import proofs.«173745_j35296041238974_1_alg».proof.Proof.Gen.KernelIdeal.Frame
import proofs.«173745_j35296041238974_1_alg».proof.Proof.Gen.ReferenceIdeal
import proofs.«173745_j35296041238974_1_alg».proof.Proof.Gen.ReferenceIdeal.Run
import proofs.«173745_j35296041238974_1_alg».proof.Proof.Gen.ReferenceIdeal.Read
import proofs.«173745_j35296041238974_1_alg».proof.Proof.Gen.Pre_finite_inputs
import proofs.«173745_j35296041238974_1_alg».proof.Proof.KernelRun
import proofs.«173745_j35296041238974_1_alg».proof.Proof.RefSide
import Idealize.ShloMosaic.Adequacy
import Idealize.ShloMosaic.Init

noncomputable section

namespace Cert.Proof

open Idealize.ShloMosaic Idealize.SL.Sem

/-- The word-level kernel runs to the end, faults nowhere and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- From memories that agree on X, Y and A, both programs end with the total loss in their result. -/
theorem algebraic : Cert.algebraic_KernelIdeal_ReferenceIdeal := by
  intro m ρ m' ρ' _ hagree
  refine ⟨fun c => fun _ => Cert.PairLoss.total (Cert.KernelIdeal.Blocks.X m c) (Cert.KernelIdeal.Blocks.Y m c) (Cert.KernelIdeal.Blocks.A m c),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v12_eq _ _ _).trans ?_
  rw [Cert.ReferenceIdeal.RefValue.result_eq, (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
